-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x64 : Shape := ⟨2, ![40000, 64]⟩
abbrev S2x640000 : Shape := ⟨2, ![2, 640000]⟩
abbrev S40000 : Shape := ⟨1, ![40000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S40000x64 : S_.BroadcastsInDim S40000x64 (![] : Fin 0 → Fin S40000x64.rank)
  reducesTo_S40000x64_S_d0_1 : S40000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S128x3 .f32) (main_arg14 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x3 .f32 := Host.absf main_arg13
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x3 .f32) (main_arg14 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x3 .f32) (main_arg14 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S40000x64 .f32) (main_arg1 : IVec S2x640000 32) (main_arg2 : IVec S40000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x3 .f32) (main_arg14 : FVec F S3 .f32) : IVec S_ 1 :=
  let main_v0 : FVec F S40000x64 .f32 := Host.absf main_arg0
  let main_cst : FVec F S_ .f32 := constant S_ .f32 0x7F800000#32
  let main_v1 : FVec F S40000x64 .f32 := broadcastInDim S40000x64 ![] bcast_S_S40000x64 main_cst
  let main_v2 : IVec S40000x64 1 := cmpf .olt main_v0 main_v1
  let main_c : IVec S_ 1 := constantI S_ 1 1#1
  let main_v3 : IVec S_ 1 := (fun x v => Host.reduce IntOp.andi x v reducesTo_S40000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S40000x64 : Shape := ⟨2, ![40000, 64]⟩
abbrev S2x640000 : Shape := ⟨2, ![2, 640000]⟩
abbrev S40000 : Shape := ⟨1, ![40000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S1x128 : Shape := ⟨2, ![1, 128]⟩
abbrev S40000x128 : Shape := ⟨2, ![40000, 128]⟩
abbrev S5000x64 : Shape := ⟨2, ![5000, 64]⟩
abbrev S5000x128 : Shape := ⟨2, ![5000, 128]⟩
abbrev S640000x128 : Shape := ⟨2, ![640000, 128]⟩
abbrev S2000x128 : Shape := ⟨2, ![2000, 128]⟩
abbrev S40000x1 : Shape := ⟨2, ![40000, 1]⟩
abbrev S2000 : Shape := ⟨1, ![2000]⟩
abbrev S2000x1 : Shape := ⟨2, ![2000, 1]⟩
abbrev S1x3 : Shape := ⟨2, ![1, 3]⟩
abbrev S2000x3 : Shape := ⟨2, ![2000, 3]⟩

abbrev nBuf : Space → Nat
  | .hbm => 70
  | .vmem => 26
  | .smem => 0
  | _ => 0

abbrev bufTy : (tb : Table) → Fin (tcTables nBuf tb) → BufTy
  | .hbm, ⟨0, _⟩ => ⟨S40000x64, .f32⟩
  | .hbm, ⟨1, _⟩ => ⟨S2x640000, .i32⟩
  | .hbm, ⟨2, _⟩ => ⟨S40000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x64, .f32⟩
  | .hbm, ⟨28, _⟩ => ⟨S_, .f32⟩
  | .hbm, ⟨29, _⟩ => ⟨S40000x64, .f32⟩
  | .hbm, ⟨30, _⟩ => ⟨S640000x1, .i32⟩
  | .hbm, ⟨31, _⟩ => ⟨S40000x64, .f32⟩
  | .hbm, ⟨32, _⟩ => ⟨S1x128, .f32⟩
  | .hbm, ⟨33, _⟩ => ⟨S1x128, .f32⟩
  | .hbm, ⟨34, _⟩ => ⟨S40000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S_, .f32⟩
  | .hbm, ⟨45, _⟩ => ⟨S40000x128, .f32⟩
  | .hbm, ⟨46, _⟩ => ⟨S640000x1, .i32⟩
  | .hbm, ⟨47, _⟩ => ⟨S40000x128, .f32⟩
  | .hbm, ⟨48, _⟩ => ⟨S1x128, .f32⟩
  | .hbm, ⟨49, _⟩ => ⟨S1x128, .f32⟩
  | .hbm, ⟨50, _⟩ => ⟨S40000x128, .f32⟩
  | .hbm, ⟨51, _⟩ => ⟨S_, .f32⟩
  | .hbm, ⟨52, _⟩ => ⟨S2000x128, .f32⟩
  | .hbm, ⟨53, _⟩ => ⟨S40000x1, .i32⟩
  | .hbm, ⟨54, _⟩ => ⟨S2000x128, .f32⟩
  | .hbm, ⟨55, _⟩ => ⟨S_, .f32⟩
  | .hbm, ⟨56, _⟩ => ⟨S40000, .f32⟩
  | .hbm, ⟨57, _⟩ => ⟨S_, .f32⟩
  | .hbm, ⟨58, _⟩ => ⟨S2000, .f32⟩
  | .hbm, ⟨59, _⟩ => ⟨S40000x1, .i32⟩
  | .hbm, ⟨60, _⟩ => ⟨S2000, .f32⟩
  | .hbm, ⟨61, _⟩ => ⟨S_, .f32⟩
  | .hbm, ⟨62, _⟩ => ⟨S2000, .f32⟩
  | .hbm, ⟨63, _⟩ => ⟨S2000, .f32⟩
  | .hbm, ⟨64, _⟩ => ⟨S2000x1, .f32⟩
  | .hbm, ⟨65, _⟩ => ⟨S2000x128, .f32⟩
  | .hbm, ⟨66, _⟩ => ⟨S2000x128, .f32⟩
  | .hbm, ⟨67, _⟩ => ⟨S1x128, .f32⟩
  | .hbm, ⟨68, _⟩ => ⟨S1x3, .f32⟩
  | .hbm, ⟨69, _⟩ => ⟨S2000x3, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x3, .f32⟩
  | .local _ .vmem, ⟨24, _⟩ => ⟨S1x3, .f32⟩
  | .local _ .vmem, ⟨25, _⟩ => ⟨S2000x3, .f32⟩
  | _, _ => ⟨S40000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2000x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x64 : S_.BroadcastsInDim S40000x64 (![] : Fin 0 → Fin S40000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S40000x128 : S_.BroadcastsInDim S40000x128 (![] : Fin 0 → Fin S40000x128.rank)
  shapeCasts_S5000x128_S5000x128 : S5000x128.ShapeCasts S5000x128
  bcast_S_S2000x128 : S_.BroadcastsInDim S2000x128 (![] : Fin 0 → Fin S2000x128.rank)
  bcast_S40000_S40000x1_0 : S40000.BroadcastsInDim S40000x1 (![0] : Fin 1 → Fin S40000x1.rank)
  bcast_S_S40000 : S_.BroadcastsInDim S40000 (![] : Fin 0 → Fin S40000.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  shapeCasts_S3_S1x3 : S3.ShapeCasts S1x3
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S2000x128_S40000x1_S40000x128_1_0_0_1_wf : ScatterDims.WF S2000x128 S40000x1 S40000x128 [1] [0] [0] 1
  scatter_S2000_S40000x1_S40000_n_0_0_1_wf : ScatterDims.WF S2000 S40000x1 S40000 [] [0] [0] 1
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S40000x64.size a
  hwx0_0 : ∀ i : grid0.Coords, EltTy.bits .f32 = 32 ∨ (Rect.block (s := S40000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S40000x64.size a
  hwx0_1 : ∀ i : grid0.Coords, EltTy.bits .f32 = 32 ∨ (Rect.block (s := S40000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S40000x128.size a
  hwx1_6 : ∀ i : grid1.Coords, EltTy.bits .f32 = 32 ∨ (Rect.block (s := S40000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S2000x128.size a
  hwx2_0 : ∀ i : grid2.Coords, EltTy.bits .f32 = 32 ∨ (Rect.block (s := S2000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x3.size a ≤ S128x3.size a
  hwx2_3 : ∀ i : grid2.Coords, EltTy.bits .f32 = 32 ∨ (Rect.block (s := S128x3) S128x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x3.size a ≤ S1x3.size a
  hwx2_4 : ∀ i : grid2.Coords, EltTy.bits .f32 = 32 ∨ (Rect.block (s := S1x3) S1x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2000x3.size a ≤ S2000x3.size a
  hwx2_5 : ∀ i : grid2.Coords, EltTy.bits .f32 = 32 ∨ (Rect.block (s := S2000x3) S2000x3.size (cc2_transform_5 i) (hinb2_5 i)).WholeWords (EltTy.packing .f32)

variable [Facts₀]

def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S2000x128_S40000x1_S40000x128_1_0_0_1 : ScatterDims S2000x128 S40000x1 S40000x128 where
  updateWindowDims := [1]
  insertedWindowDims := [0]
  scatterDimsToOperandDims := [0]
  indexVectorDim := 1
  wf := scatter_S2000x128_S40000x1_S40000x128_1_0_0_1_wf
def scatter_S2000_S40000x1_S40000_n_0_0_1 : ScatterDims S2000 S40000x1 S40000 where
  updateWindowDims := []
  insertedWindowDims := [0]
  scatterDimsToOperandDims := [0]
  indexVectorDim := 1
  wf := scatter_S2000_S40000x1_S40000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S2000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S2000x3.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x64 : Shape := ⟨2, ![40000, 64]⟩
abbrev S2x640000 : Shape := ⟨2, ![2, 640000]⟩
abbrev S40000 : Shape := ⟨1, ![40000]⟩
abbrev S64x128 : Shape := ⟨2, ![64, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S40000x128 : Shape := ⟨2, ![40000, 128]⟩
abbrev S1x128 : Shape := ⟨2, ![1, 128]⟩
abbrev S640000x128 : Shape := ⟨2, ![640000, 128]⟩
abbrev S2000x128 : Shape := ⟨2, ![2000, 128]⟩
abbrev S40000x1 : Shape := ⟨2, ![40000, 1]⟩
abbrev S2000 : Shape := ⟨1, ![2000]⟩
abbrev S2000x1 : Shape := ⟨2, ![2000, 1]⟩
abbrev S2000x3 : Shape := ⟨2, ![2000, 3]⟩
abbrev S1x3 : Shape := ⟨2, ![1, 3]⟩

abbrev nBuf : Space → Nat
  | .hbm => 102
  | .vmem => 0
  | .smem => 0
  | _ => 0

abbrev bufTy : (tb : Table) → Fin (tcTables nBuf tb) → BufTy
  | .hbm, ⟨0, _⟩ => ⟨S40000x64, .f32⟩
  | .hbm, ⟨1, _⟩ => ⟨S2x640000, .i32⟩
  | .hbm, ⟨2, _⟩ => ⟨S40000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x64, .f32⟩
  | .hbm, ⟨28, _⟩ => ⟨S_, .f32⟩
  | .hbm, ⟨29, _⟩ => ⟨S40000x64, .f32⟩
  | .hbm, ⟨30, _⟩ => ⟨S640000x1, .i32⟩
  | .hbm, ⟨31, _⟩ => ⟨S40000x64, .f32⟩
  | .hbm, ⟨32, _⟩ => ⟨S40000x64, .f32⟩
  | .hbm, ⟨33, _⟩ => ⟨S40000x128, .f32⟩
  | .hbm, ⟨34, _⟩ => ⟨S1x128, .f32⟩
  | .hbm, ⟨35, _⟩ => ⟨S40000x128, .f32⟩
  | .hbm, ⟨36, _⟩ => ⟨S40000x128, .f32⟩
  | .hbm, ⟨37, _⟩ => ⟨S_, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S1x128, .f32⟩
  | .hbm, ⟨42, _⟩ => ⟨S40000x128, .f32⟩
  | .hbm, ⟨43, _⟩ => ⟨S40000x128, .f32⟩
  | .hbm, ⟨44, _⟩ => ⟨S_, .f32⟩
  | .hbm, ⟨45, _⟩ => ⟨S40000x128, .f32⟩
  | .hbm, ⟨46, _⟩ => ⟨S40000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S40000x128, .f32⟩
  | .hbm, ⟨58, _⟩ => ⟨S640000x1, .i32⟩
  | .hbm, ⟨59, _⟩ => ⟨S40000x128, .f32⟩
  | .hbm, ⟨60, _⟩ => ⟨S40000x128, .f32⟩
  | .hbm, ⟨61, _⟩ => ⟨S40000x128, .f32⟩
  | .hbm, ⟨62, _⟩ => ⟨S1x128, .f32⟩
  | .hbm, ⟨63, _⟩ => ⟨S40000x128, .f32⟩
  | .hbm, ⟨64, _⟩ => ⟨S40000x128, .f32⟩
  | .hbm, ⟨65, _⟩ => ⟨S_, .f32⟩
  | .hbm, ⟨66, _⟩ => ⟨S40000x128, .f32⟩
  | .hbm, ⟨67, _⟩ => ⟨S40000x128, .f32⟩
  | .hbm, ⟨68, _⟩ => ⟨S40000x128, .f32⟩
  | .hbm, ⟨69, _⟩ => ⟨S1x128, .f32⟩
  | .hbm, ⟨70, _⟩ => ⟨S40000x128, .f32⟩
  | .hbm, ⟨71, _⟩ => ⟨S40000x128, .f32⟩
  | .hbm, ⟨72, _⟩ => ⟨S_, .f32⟩
  | .hbm, ⟨73, _⟩ => ⟨S40000x128, .f32⟩
  | .hbm, ⟨74, _⟩ => ⟨S40000x128, .f32⟩
  | .hbm, ⟨75, _⟩ => ⟨S_, .f32⟩
  | .hbm, ⟨76, _⟩ => ⟨S2000x128, .f32⟩
  | .hbm, ⟨77, _⟩ => ⟨S40000x1, .i32⟩
  | .hbm, ⟨78, _⟩ => ⟨S2000x128, .f32⟩
  | .hbm, ⟨79, _⟩ => ⟨S_, .f32⟩
  | .hbm, ⟨80, _⟩ => ⟨S40000, .f32⟩
  | .hbm, ⟨81, _⟩ => ⟨S_, .f32⟩
  | .hbm, ⟨82, _⟩ => ⟨S2000, .f32⟩
  | .hbm, ⟨83, _⟩ => ⟨S40000x1, .i32⟩
  | .hbm, ⟨84, _⟩ => ⟨S2000, .f32⟩
  | .hbm, ⟨85, _⟩ => ⟨S_, .f32⟩
  | .hbm, ⟨86, _⟩ => ⟨S2000, .f32⟩
  | .hbm, ⟨87, _⟩ => ⟨S2000, .f32⟩
  | .hbm, ⟨88, _⟩ => ⟨S2000x1, .f32⟩
  | .hbm, ⟨89, _⟩ => ⟨S2000x128, .f32⟩
  | .hbm, ⟨90, _⟩ => ⟨S2000x128, .f32⟩
  | .hbm, ⟨91, _⟩ => ⟨S2000x128, .f32⟩
  | .hbm, ⟨92, _⟩ => ⟨S1x128, .f32⟩
  | .hbm, ⟨93, _⟩ => ⟨S2000x128, .f32⟩
  | .hbm, ⟨94, _⟩ => ⟨S2000x128, .f32⟩
  | .hbm, ⟨95, _⟩ => ⟨S_, .f32⟩
  | .hbm, ⟨96, _⟩ => ⟨S2000x128, .f32⟩
  | .hbm, ⟨97, _⟩ => ⟨S2000x128, .f32⟩
  | .hbm, ⟨98, _⟩ => ⟨S2000x3, .f32⟩
  | .hbm, ⟨99, _⟩ => ⟨S1x3, .f32⟩
  | .hbm, ⟨100, _⟩ => ⟨S2000x3, .f32⟩
  | .hbm, ⟨101, _⟩ => ⟨S2000x3, .f32⟩
  | _, _ => ⟨S40000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call3_cst : Ref sig .tc := ⟨.hbm, 72, rfl⟩
abbrev main_call3_v0 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call4_cst : Ref sig .tc := ⟨.hbm, 95, rfl⟩
abbrev main_call4_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x64 : S_.BroadcastsInDim S40000x64 (![] : Fin 0 → Fin S40000x64.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  bcast_S_S2000x128 : S_.BroadcastsInDim S2000x128 (![] : Fin 0 → Fin S2000x128.rank)
  bcast_S40000_S40000x1_0 : S40000.BroadcastsInDim S40000x1 (![0] : Fin 1 → Fin S40000x1.rank)
  bcast_S_S40000 : S_.BroadcastsInDim S40000 (![] : Fin 0 → Fin S40000.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S1x128_S2000x128_0_1 : S1x128.BroadcastsInDim S2000x128 (![0, 1] : Fin 2 → Fin S2000x128.rank)
  bcast_S3_S1x3_1 : S3.BroadcastsInDim S1x3 (![1] : Fin 1 → Fin S1x3.rank)
  bcast_S1x3_S2000x3_0_1 : S1x3.BroadcastsInDim S2000x3 (![0, 1] : Fin 2 → Fin S2000x3.rank)
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S40000x64_S64x128_S40000x128_1_0_0_1_n_n_wf : DotDims.WF S40000x64 S64x128 S40000x128 [1] [0] [0] [1] [] []
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S2000x128_S40000x1_S40000x128_1_0_0_1_wf : ScatterDims.WF S2000x128 S40000x1 S40000x128 [1] [0] [0] 1
  scatter_S2000_S40000x1_S40000_n_0_0_1_wf : ScatterDims.WF S2000 S40000x1 S40000 [] [0] [0] 1
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []

variable [Facts₀]

def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S40000x64_S64x128_S40000x128_1_0_0_1_n_n : DotDims S40000x64 S64x128 S40000x128 where
  lhsContracting := [1]
  rhsContracting := [0]
  lhsNonContracting := [0]
  rhsNonContracting := [1]
  lhsBatch := []
  rhsBatch := []
  wf := dot_S40000x64_S64x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S2000x128_S40000x1_S40000x128_1_0_0_1 : ScatterDims S2000x128 S40000x1 S40000x128 where
  updateWindowDims := [1]
  insertedWindowDims := [0]
  scatterDimsToOperandDims := [0]
  indexVectorDim := 1
  wf := scatter_S2000x128_S40000x1_S40000x128_1_0_0_1_wf
def scatter_S2000_S40000x1_S40000_n_0_0_1 : ScatterDims S2000 S40000x1 S40000 where
  updateWindowDims := []
  insertedWindowDims := [0]
  scatterDimsToOperandDims := [0]
  indexVectorDim := 1
  wf := scatter_S2000_S40000x1_S40000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

class Facts : Prop extends Facts₀ where

variable [Facts]
-- ==== Proof.KernelRun.lean ====
/-
  THE KERNEL PROGRAM'S RUN WITH ITS RESULT NAMED.

  The program is three stretches of host operations, each followed by a region.  Every weakly fair execution from a
  memory with zero counters terminates without a fault; at the end every unscoped buffer holds what the last boundary's
  contents say, so the result buffer holds what the third region leaves in its output array, and the argument arrays are
  as launched.
-/
import proofs.«137290_j78795470012786_1_alg».proof.Proof.Gen.KernelIdeal.Frame

set_option maxRecDepth 16384

noncomputable section

namespace Cert.Gnn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what the third
    region leaves in its output array and the argument arrays as launched. -/
theorem run : θ_run defs (onTc (τ := τ) (main (F := F))) ⟨m, fun _ => 0, ρ⟩ (fun r => ∀ c : Dev nD,
      r.2.mem ((c.tc : Thread nD τ).loc main_v44) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v44 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.Gnn.KRun

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«137290_j78795470012786_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.Mlp.lean ====
/-
  THE TWO NETWORKS OF THE GRAPH MODEL, as functions of whole arrays with any number of rows.

  A round of message passing updates every node's row by the same small network: the row of features plus the row of
  summed neighbour features goes through a dense layer, a rectifier, a second dense layer and a second rectifier
  (`gin`).  The pooled rows go through a dense layer, a rectifier and a last dense layer (`head`).  Each output row depends
  on the same input row and on nothing else of the input, so a block of rows of the result is the same network applied to
  that block of rows (`gin_rows`).
-/
import proofs.«137290_j78795470012786_1_alg».proof.Proof.LibRowBias

noncomputable section

namespace Cert.Gnn

open Idealize.ShloMosaic Idealize.ShloMosaic.ValueIdx Cert.DenseRow Cert.RowBias

/-- One update of every node's row: the rectifier of a dense layer of the rectifier of a dense layer of `x + agg`. -/
def gin {R K N : ℕ} (x agg : (⟨2, ![R, K]⟩ : Shape).Idx → EReal) (w1 : (⟨2, ![K, N]⟩ : Shape).Idx → EReal)
    (b1 : (⟨1, ![N]⟩ : Shape).Idx → EReal) (w2 : (⟨2, ![N, N]⟩ : Shape).Idx → EReal) (b2 : (⟨1, ![N]⟩ : Shape).Idx → EReal) :
    (⟨2, ![R, N]⟩ : Shape).Idx → EReal :=
  actArr zf (layerArr (actArr zf (layerArr (fun i => x i + agg i) w1 b1)) w2 b2)

/-- The read-out of every pooled row: a dense layer of the rectifier of a dense layer. -/
def head {R K N M : ℕ} (p : (⟨2, ![R, K]⟩ : Shape).Idx → EReal) (w1 : (⟨2, ![K, N]⟩ : Shape).Idx → EReal)
    (b1 : (⟨1, ![N]⟩ : Shape).Idx → EReal) (w2 : (⟨2, ![N, M]⟩ : Shape).Idx → EReal) (b2 : (⟨1, ![M]⟩ : Shape).Idx → EReal) :
    (⟨2, ![R, M]⟩ : Shape).Idx → EReal :=
  layerArr (actArr zf (layerArr p w1 b1)) w2 b2

/-- Row `p` of the update of `(x, agg)` is row `p'` of the update of `(X, AGG)` when the two pairs agree on those rows. -/
theorem gin_rows {R R' K N : ℕ} (x agg : (⟨2, ![R, K]⟩ : Shape).Idx → EReal) (X AGG : (⟨2, ![R', K]⟩ : Shape).Idx → EReal)
    (w1 : (⟨2, ![K, N]⟩ : Shape).Idx → EReal) (b1 : (⟨1, ![N]⟩ : Shape).Idx → EReal)
    (w2 : (⟨2, ![N, N]⟩ : Shape).Idx → EReal) (b2 : (⟨1, ![N]⟩ : Shape).Idx → EReal) (p : Fin R) (p' : Fin R')
    (hx : ∀ k : Fin K, x (ix2 p k) = X (ix2 p' k)) (ha : ∀ k : Fin K, agg (ix2 p k) = AGG (ix2 p' k)) (c : Fin N) :
    gin x agg w1 b1 w2 b2 (ix2 p c) = gin X AGG w1 b1 w2 b2 (ix2 p' c) := by
  unfold gin
  refine actArr_rows zf _ _ p p' (fun k => ?_) c
  refine layerArr_rows _ _ w2 b2 p p' (fun k' => ?_) k
  refine actArr_rows zf _ _ p p' (fun k'' => ?_) k'
  refine layerArr_rows _ _ w1 b1 p p' (fun j => ?_) k''
  show x (ix2 p j) + agg (ix2 p j) = X (ix2 p' j) + AGG (ix2 p' j)
  rw [hx j, ha j]

end Cert.Gnn

end
-- ==== Proof.KernelBody.lean ====
/-
  THE THREE KERNEL BODIES AT THE IDEAL VALUES.

  Each body stores one value, a pure function of the blocks it loads.  At the ideal values a change of float format is
  the identity, a matrix product into a zero accumulator is the plain sum over the contracted coordinate, and the larger
  of a value and zero is the rectifier; so the two node-update bodies are the update network `gin` of their loaded
  blocks, and the pooled body is the read-out network `head`.  The contraction records' index facts (the operand
  indices at output index `(p, c)` and contraction coordinate `k` are `(p, k)` and `(k, c)`) are read off the records.
-/
import proofs.«137290_j78795470012786_1_alg».proof.Proof.Gen.KernelIdeal.Skeleton
import proofs.«137290_j78795470012786_1_alg».proof.Proof.Mlp

noncomputable section

namespace Cert.Gnn.KBody

open Cert.KernelIdeal Cert.KernelIdeal.Gen Idealize.ShloMosaic Idealize.ShloMosaic.ValueIdx Cert.DenseRow Cert.RowBias Cert.Gnn

/-! ## The contraction records -/

/-- The left operand's index at output index `(p, c)` and contraction coordinate `k` is `(p, k)`. -/
theorem lhs_a (p : Fin 5000) (c : Fin 128) (k : Fin 64) :
    dot_S5000x64_S64x128_S5000x128_1_0_0_1_n_n.lhsIdx (ix2 p c) ((contrEquiv1 dot_S5000x64_S64x128_S5000x128_1_0_0_1_n_n 64 rfl rfl).symm k) = ix2 p k :=
  funext fun a => Fin.ext (by
    have hk := contrEquiv1_symm_val dot_S5000x64_S64x128_S5000x128_1_0_0_1_n_n 64 rfl rfl k
    match a with
    | ⟨0, _⟩ =>
      show (dot_S5000x64_S64x128_S5000x128_1_0_0_1_n_n.lhsIdx (ix2 p c) ((contrEquiv1 dot_S5000x64_S64x128_S5000x128_1_0_0_1_n_n 64 rfl rfl).symm k) 0).val = p.val
      unfold DotDims.lhsIdx
      rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
      rfl
    | ⟨1, _⟩ => exact (dot_S5000x64_S64x128_S5000x128_1_0_0_1_n_n.lhsIdx_val_of_single rfl (ix2 p c) _).trans hk)

/-- The right operand's index at output index `(p, c)` and contraction coordinate `k` is `(k, c)`. -/
theorem rhs_a (p : Fin 5000) (c : Fin 128) (k : Fin 64) :
    dot_S5000x64_S64x128_S5000x128_1_0_0_1_n_n.rhsIdx (ix2 p c) ((contrEquiv1 dot_S5000x64_S64x128_S5000x128_1_0_0_1_n_n 64 rfl rfl).symm k) = ix2 k c :=
  funext fun a => Fin.ext (by
    have hk := contrEquiv1_symm_val dot_S5000x64_S64x128_S5000x128_1_0_0_1_n_n 64 rfl rfl k
    match a with
    | ⟨0, _⟩ => exact (dot_S5000x64_S64x128_S5000x128_1_0_0_1_n_n.rhsIdx_val_of_single rfl (ix2 p c) _).trans hk
    | ⟨1, _⟩ =>
      show (dot_S5000x64_S64x128_S5000x128_1_0_0_1_n_n.rhsIdx (ix2 p c) ((contrEquiv1 dot_S5000x64_S64x128_S5000x128_1_0_0_1_n_n 64 rfl rfl).symm k) 1).val = c.val
      unfold DotDims.rhsIdx
      rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
      rfl)

/-- The left operand's index at output index `(p, c)` and contraction coordinate `k` is `(p, k)`. -/
theorem lhs_b (p : Fin 5000) (c : Fin 128) (k : Fin 128) :
    dot_S5000x128_S128x128_S5000x128_1_0_0_1_n_n.lhsIdx (ix2 p c) ((contrEquiv1 dot_S5000x128_S128x128_S5000x128_1_0_0_1_n_n 128 rfl rfl).symm k) = ix2 p k :=
  funext fun a => Fin.ext (by
    have hk := contrEquiv1_symm_val dot_S5000x128_S128x128_S5000x128_1_0_0_1_n_n 128 rfl rfl k
    match a with
    | ⟨0, _⟩ =>
      show (dot_S5000x128_S128x128_S5000x128_1_0_0_1_n_n.lhsIdx (ix2 p c) ((contrEquiv1 dot_S5000x128_S128x128_S5000x128_1_0_0_1_n_n 128 rfl rfl).symm k) 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p c) _).trans hk)

/-- The right operand's index at output index `(p, c)` and contraction coordinate `k` is `(k, c)`. -/
theorem rhs_b (p : Fin 5000) (c : Fin 128) (k : Fin 128) :
    dot_S5000x128_S128x128_S5000x128_1_0_0_1_n_n.rhsIdx (ix2 p c) ((contrEquiv1 dot_S5000x128_S128x128_S5000x128_1_0_0_1_n_n 128 rfl rfl).symm k) = ix2 k c :=
  funext fun a => Fin.ext (by
    have hk := contrEquiv1_symm_val dot_S5000x128_S128x128_S5000x128_1_0_0_1_n_n 128 rfl rfl k
    match a with
    | ⟨0, _⟩ => exact (dot_S5000x128_S128x128_S5000x128_1_0_0_1_n_n.rhsIdx_val_of_single rfl (ix2 p c) _).trans hk
    | ⟨1, _⟩ =>
      show (dot_S5000x128_S128x128_S5000x128_1_0_0_1_n_n.rhsIdx (ix2 p c) ((contrEquiv1 dot_S5000x128_S128x128_S5000x128_1_0_0_1_n_n 128 rfl rfl).symm k) 1).val = c.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)

/-- The left operand's index at output index `(p, c)` and contraction coordinate `k` is `(p, k)`. -/
theorem lhs_c (p : Fin 2000) (c : Fin 128) (k : Fin 128) :
    dot_S2000x128_S128x128_S2000x128_1_0_0_1_n_n.lhsIdx (ix2 p c) ((contrEquiv1 dot_S2000x128_S128x128_S2000x128_1_0_0_1_n_n 128 rfl rfl).symm k) = ix2 p k :=
  funext fun a => Fin.ext (by
    have hk := contrEquiv1_symm_val dot_S2000x128_S128x128_S2000x128_1_0_0_1_n_n 128 rfl rfl k
    match a with
    | ⟨0, _⟩ =>
      show (dot_S2000x128_S128x128_S2000x128_1_0_0_1_n_n.lhsIdx (ix2 p c) ((contrEquiv1 dot_S2000x128_S128x128_S2000x128_1_0_0_1_n_n 128 rfl rfl).symm k) 0).val = p.val
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl
    | ⟨1, _⟩ => exact (dot_S2000x128_S128x128_S2000x128_1_0_0_1_n_n.lhsIdx_val_of_single rfl (ix2 p c) _).trans hk)

/-- The right operand's index at output index `(p, c)` and contraction coordinate `k` is `(k, c)`. -/
theorem rhs_c (p : Fin 2000) (c : Fin 128) (k : Fin 128) :
    dot_S2000x128_S128x128_S2000x128_1_0_0_1_n_n.rhsIdx (ix2 p c) ((contrEquiv1 dot_S2000x128_S128x128_S2000x128_1_0_0_1_n_n 128 rfl rfl).symm k) = ix2 k c :=
  funext fun a => Fin.ext (by
    have hk := contrEquiv1_symm_val dot_S2000x128_S128x128_S2000x128_1_0_0_1_n_n 128 rfl rfl k
    match a with
    | ⟨0, _⟩ => exact (dot_S2000x128_S128x128_S2000x128_1_0_0_1_n_n.rhsIdx_val_of_single rfl (ix2 p c) _).trans hk
    | ⟨1, _⟩ =>
      show (dot_S2000x128_S128x128_S2000x128_1_0_0_1_n_n.rhsIdx (ix2 p c) ((contrEquiv1 dot_S2000x128_S128x128_S2000x128_1_0_0_1_n_n 128 rfl rfl).symm k) 1).val = c.val
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)

/-- The left operand's index at output index `(p, c)` and contraction coordinate `k` is `(p, k)`. -/
theorem lhs_d (p : Fin 2000) (c : Fin 3) (k : Fin 128) :
    dot_S2000x128_S128x3_S2000x3_1_0_0_1_n_n.lhsIdx (ix2 p c) ((contrEquiv1 dot_S2000x128_S128x3_S2000x3_1_0_0_1_n_n 128 rfl rfl).symm k) = ix2 p k :=
  funext fun a => Fin.ext (by
    have hk := contrEquiv1_symm_val dot_S2000x128_S128x3_S2000x3_1_0_0_1_n_n 128 rfl rfl k
    match a with
    | ⟨0, _⟩ =>
      show (dot_S2000x128_S128x3_S2000x3_1_0_0_1_n_n.lhsIdx (ix2 p c) ((contrEquiv1 dot_S2000x128_S128x3_S2000x3_1_0_0_1_n_n 128 rfl rfl).symm k) 0).val = p.val
      unfold DotDims.lhsIdx
      rw [dif_neg (show ¬(0 : Fin S2000x128.rank) ∈ dot_S2000x128_S128x3_S2000x3_1_0_0_1_n_n.lhsBatch by decide), dif_pos (show (0 : Fin S2000x128.rank) ∈ dot_S2000x128_S128x3_S2000x3_1_0_0_1_n_n.lhsNonContracting by decide)]
      rfl
    | ⟨1, _⟩ => exact (dot_S2000x128_S128x3_S2000x3_1_0_0_1_n_n.lhsIdx_val_of_single rfl (ix2 p c) _).trans hk)

/-- The right operand's index at output index `(p, c)` and contraction coordinate `k` is `(k, c)`. -/
theorem rhs_d (p : Fin 2000) (c : Fin 3) (k : Fin 128) :
    dot_S2000x128_S128x3_S2000x3_1_0_0_1_n_n.rhsIdx (ix2 p c) ((contrEquiv1 dot_S2000x128_S128x3_S2000x3_1_0_0_1_n_n 128 rfl rfl).symm k) = ix2 k c :=
  funext fun a => Fin.ext (by
    have hk := contrEquiv1_symm_val dot_S2000x128_S128x3_S2000x3_1_0_0_1_n_n 128 rfl rfl k
    match a with
    | ⟨0, _⟩ => exact (dot_S2000x128_S128x3_S2000x3_1_0_0_1_n_n.rhsIdx_val_of_single rfl (ix2 p c) _).trans hk
    | ⟨1, _⟩ =>
      show (dot_S2000x128_S128x3_S2000x3_1_0_0_1_n_n.rhsIdx (ix2 p c) ((contrEquiv1 dot_S2000x128_S128x3_S2000x3_1_0_0_1_n_n 128 rfl rfl).symm k) 1).val = c.val
      unfold DotDims.rhsIdx
      rw [dif_neg (show ¬(1 : Fin S128x3.rank) ∈ dot_S2000x128_S128x3_S2000x3_1_0_0_1_n_n.rhsBatch by decide), dif_pos (show (1 : Fin S128x3.rank) ∈ dot_S2000x128_S128x3_S2000x3_1_0_0_1_n_n.rhsNonContracting by decide)]
      rfl)

/-! ## The bodies' stored values -/

/-- The first node-update body stores the update network of its six loaded blocks. -/
theorem pay0 (x0 x1 : Vec Ideal S5000x64 .f32) (x2 : Vec Ideal S64x128 .f32) (x3 : Vec Ideal S1x128 .f32)
    (x4 : Vec Ideal S128x128 .f32) (x5 : Vec Ideal S1x128 .f32) :
    k0_pay1 (F := Ideal) x0 x1 x2 x3 x4 x5 = gin x0 x1 x2 (unrow x3) x4 (unrow x5) := by
  unfold k0_pay1 gin
  dsimp only
  rw [shapeCast_self, klayer1Arr dot_S5000x64_S64x128_S5000x128_1_0_0_1_n_n rfl rfl lhs_a rhs_a, kact,
    klayer1Arr dot_S5000x128_S128x128_S5000x128_1_0_0_1_n_n rfl rfl lhs_b rhs_b, kact]
  rfl

/-- The second node-update body stores the update network of its six loaded blocks. -/
theorem pay1 (x0 x1 : Vec Ideal S5000x128 .f32) (x2 : Vec Ideal S128x128 .f32) (x3 : Vec Ideal S1x128 .f32)
    (x4 : Vec Ideal S128x128 .f32) (x5 : Vec Ideal S1x128 .f32) :
    k1_pay1 (F := Ideal) x0 x1 x2 x3 x4 x5 = gin x0 x1 x2 (unrow x3) x4 (unrow x5) := by
  unfold k1_pay1 gin
  dsimp only
  rw [shapeCast_self, shapeCast_self, klayer1Arr dot_S5000x128_S128x128_S5000x128_1_0_0_1_n_n rfl rfl lhs_b rhs_b, kact,
    klayer1Arr dot_S5000x128_S128x128_S5000x128_1_0_0_1_n_n rfl rfl lhs_b rhs_b, kact]
  rfl

/-- The pooled body stores the read-out network of its five loaded blocks. -/
theorem pay2 (x0 : Vec Ideal S2000x128 .f32) (x1 : Vec Ideal S128x128 .f32) (x2 : Vec Ideal S1x128 .f32)
    (x3 : Vec Ideal S128x3 .f32) (x4 : Vec Ideal S1x3 .f32) :
    k2_pay1 (F := Ideal) x0 x1 x2 x3 x4 = head x0 x1 (unrow x2) x3 (unrow x4) := by
  unfold k2_pay1 head
  dsimp only
  rw [shapeCast_self, klayer1Arr dot_S2000x128_S128x128_S2000x128_1_0_0_1_n_n rfl rfl lhs_c rhs_c, kact,
    klayer1Arr dot_S2000x128_S128x3_S2000x3_1_0_0_1_n_n rfl rfl lhs_d rhs_d]
  rfl

end Cert.Gnn.KBody

end
-- ==== Proof.Region0.lean ====
/-
  WHAT THE FIRST NODE-UPDATE REGION LEAVES IN ITS OUTPUT ARRAY, for any contents the region is entered with.

  The grid has eight points; point `t` reads rows `5000·t … 5000·t + 4999` of the feature array and of the summed-neighbour
  array, reads the two weight arrays and the two one-row bias arrays whole, and writes the same rows of the output.  The
  body's stored value is the update network of what it loads, and the update of a block of rows is that block of rows of
  the update of the whole arrays; the eight blocks cover the 40000 rows.  So the output array ends holding the update
  network of the whole entry arrays.
-/
import proofs.«137290_j78795470012786_1_alg».proof.Proof.Gen.KernelIdeal.Frame
import proofs.«137290_j78795470012786_1_alg».proof.Proof.KernelBody
import Idealize.ShloMosaic.Lib.Pipeline.Value

set_option maxRecDepth 16384

noncomputable section

namespace Cert.Gnn.Region0

open Cert.KernelIdeal Cert.KernelIdeal.Gen Idealize.ShloMosaic Idealize.ShloMosaic.TcCoe Idealize.SL.Sem
open Idealize.ShloMosaic.ValueIdx Cert.DenseRow Cert.RowBias Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the two row-blocked inputs move with the output's row block, every
    other window stays at block (0, 0), and the output's row block is below eight. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 7 :=
  (by decide +kernel : ∀ t : Fin grid0.N, _)

/-- Every row block is some point's. -/
theorem idx_onto : ∀ q0 : Fin 8, ∃ t : Fin cfg0.N, win0_6.index t = ![q0.val, 0] :=
  (by decide +kernel : ∀ q0 : Fin 8, ∃ t : Fin grid0.N, win0_6.index t = ![q0.val, 0])

/-- A window read whole at block (0, 0) is its array. -/
theorem whole2 (c : Dev nD) (t : Fin cfg0.N) : (iblk0 V c 2 t : S64x128.Idx → EReal) = V c main_arg3 := by
  obtain ⟨-, -, -, -, e0, e1, -⟩ := idx_facts t
  funext y
  show V c main_arg3 (((cfg0.win 2).blk t).view.emb y) = V c main_arg3 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem whole3 (c : Dev nD) (t : Fin cfg0.N) : (iblk0 V c 3 t : S1x128.Idx → EReal) = V c main_v14 := by
  obtain ⟨-, -, -, -, -, -, e0, e1, -⟩ := idx_facts t
  funext y
  show V c main_v14 (((cfg0.win 3).blk t).view.emb y) = V c main_v14 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem whole4 (c : Dev nD) (t : Fin cfg0.N) : (iblk0 V c 4 t : S128x128.Idx → EReal) = V c main_arg5 := by
  obtain ⟨-, -, -, -, -, -, -, -, e0, e1, -⟩ := idx_facts t
  funext y
  show V c main_arg5 (((cfg0.win 4).blk t).view.emb y) = V c main_arg5 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem whole5 (c : Dev nD) (t : Fin cfg0.N) : (iblk0 V c 5 t : S1x128.Idx → EReal) = V c main_v15 := by
  obtain ⟨-, -, -, -, -, -, -, -, -, -, e0, e1, -⟩ := idx_facts t
  funext y
  show V c main_v15 (((cfg0.win 5).blk t).view.emb y) = V c main_v15 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The update network of the whole entry arrays. -/
abbrev G (c : Dev nD) : S40000x128.Idx → EReal :=
  gin (R := 40000) (K := 64) (N := 128) (V c main_arg0) (V c main_v13) (V c main_arg3) (unrow (V c main_v14)) (V c main_arg5) (unrow (V c main_v15))

/-- What point `t` writes back is block `t` of the update network of the whole entry arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x128) hz, View.ld_unit_zero (S := S1x128) hz,
    View.ld_unit_zero (S := S128x128) hz]
  rw [KBody.pay0, whole2 V c t, whole3 V c t, whole4 V c t, whole5 V c t]
  obtain ⟨e0, e1, e2, e3, -, -, -, -, -, -, -, -, e4, e5⟩ := idx_facts t
  funext j
  obtain ⟨p, q, rfl⟩ : ∃ (p : Fin 5000) (q : Fin 128), j = ix2 p q := ⟨j 0, j 1, eq_ix2 j⟩
  have hrow : win0_6.index t (0 : Fin 2) * 5000 + 1 * p.val < 40000 := by have := p.isLt; omega
  have hi : ((cfg0.win 6).blk t).view.emb (ix2 p q) = ix2 (n0 := 40000) (n1 := 128) ⟨win0_6.index t (0 : Fin 2) * 5000 + 1 * p.val, hrow⟩ q := by
    funext a; apply Fin.ext
    match a with
    | ⟨0, _⟩ => rfl
    | ⟨1, _⟩ => show win0_6.index t (1 : Fin 2) * 128 + 1 * q.val = q.val; omega
  show gin (R := 5000) (K := 64) (N := 128) (iblk0 V c 0 t) (iblk0 V c 1 t) (V c main_arg3) (unrow (V c main_v14)) (V c main_arg5) (unrow (V c main_v15)) (ix2 p q)
    = G V c (((cfg0.win 6).blk t).view.emb (ix2 p q))
  rw [hi]
  refine gin_rows _ _ _ _ _ _ _ _ p ⟨win0_6.index t (0 : Fin 2) * 5000 + 1 * p.val, hrow⟩ (fun k => ?_) (fun k => ?_) q
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 64 + 1 * k.val = k.val; omega
  · show V c main_v13 (((cfg0.win 1).blk t).view.emb (ix2 p k)) = V c main_v13 _
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 64 + 1 * k.val = k.val; omega

/-- An index of the output array is in point `t`'s block iff each coordinate is in the block's range on its axis. -/
theorem mem_blk (t : Fin cfg0.N) (i : S40000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- The eight row blocks cover the output array: row `r` is in the block of the point whose row block is `r / 5000`. -/
theorem cover (i : S40000x128.Idx) : ∃ t : Fin cfg0.N, (cfg0.win 6).flush t = true ∧ i ∈ ((cfg0.win 6).blk t).view.set := by
  have hi0 : (i 0).val < 40000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the region: the update network of the whole entry arrays. -/
theorem arr (c : Dev nD) : (dat0 V c).arrAt 6 cfg0.N = G V c :=
  (dat0 V c).arrAt_eq_of_cover 6 (G V c) (fun t _ => flushed_eq V c t) cover

end Cert.Gnn.Region0

end
-- ==== Proof.Region1.lean ====
/-
  WHAT THE SECOND NODE-UPDATE REGION LEAVES IN ITS OUTPUT ARRAY, for any contents the region is entered with.

  The grid has eight points; point `t` reads rows `5000·t … 5000·t + 4999` of the first update's array and of the summed-neighbour
  array, reads the two weight arrays and the two one-row bias arrays whole, and writes the same rows of the output.  The
  body's stored value is the update network of what it loads, and the update of a block of rows is that block of rows of
  the update of the whole arrays; the eight blocks cover the 40000 rows.  So the output array ends holding the update
  network of the whole entry arrays.
-/
import proofs.«137290_j78795470012786_1_alg».proof.Proof.Gen.KernelIdeal.Frame
import proofs.«137290_j78795470012786_1_alg».proof.Proof.KernelBody
import Idealize.ShloMosaic.Lib.Pipeline.Value

set_option maxRecDepth 16384

noncomputable section

namespace Cert.Gnn.Region1

open Cert.KernelIdeal Cert.KernelIdeal.Gen Idealize.ShloMosaic Idealize.ShloMosaic.TcCoe Idealize.SL.Sem
open Idealize.ShloMosaic.ValueIdx Cert.DenseRow Cert.RowBias Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight points: the two row-blocked inputs move with the output's row block, every
    other window stays at block (0, 0), and the output's row block is below eight. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 7 :=
  (by decide +kernel : ∀ t : Fin grid1.N, _)

/-- Every row block is some point's. -/
theorem idx_onto : ∀ q0 : Fin 8, ∃ t : Fin cfg1.N, win1_6.index t = ![q0.val, 0] :=
  (by decide +kernel : ∀ q0 : Fin 8, ∃ t : Fin grid1.N, win1_6.index t = ![q0.val, 0])

/-- A window read whole at block (0, 0) is its array. -/
theorem whole2 (c : Dev nD) (t : Fin cfg1.N) : (iblk1 V c 2 t : S128x128.Idx → EReal) = V c main_arg7 := by
  obtain ⟨-, -, -, -, e0, e1, -⟩ := idx_facts t
  funext y
  show V c main_arg7 (((cfg1.win 2).blk t).view.emb y) = V c main_arg7 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem whole3 (c : Dev nD) (t : Fin cfg1.N) : (iblk1 V c 3 t : S1x128.Idx → EReal) = V c main_v27 := by
  obtain ⟨-, -, -, -, -, -, e0, e1, -⟩ := idx_facts t
  funext y
  show V c main_v27 (((cfg1.win 3).blk t).view.emb y) = V c main_v27 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem whole4 (c : Dev nD) (t : Fin cfg1.N) : (iblk1 V c 4 t : S128x128.Idx → EReal) = V c main_arg9 := by
  obtain ⟨-, -, -, -, -, -, -, -, e0, e1, -⟩ := idx_facts t
  funext y
  show V c main_arg9 (((cfg1.win 4).blk t).view.emb y) = V c main_arg9 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem whole5 (c : Dev nD) (t : Fin cfg1.N) : (iblk1 V c 5 t : S1x128.Idx → EReal) = V c main_v28 := by
  obtain ⟨-, -, -, -, -, -, -, -, -, -, e0, e1, -⟩ := idx_facts t
  funext y
  show V c main_v28 (((cfg1.win 5).blk t).view.emb y) = V c main_v28 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The update network of the whole entry arrays. -/
abbrev G (c : Dev nD) : S40000x128.Idx → EReal :=
  gin (R := 40000) (K := 128) (N := 128) (V c main_v16) (V c main_v26) (V c main_arg7) (unrow (V c main_v27)) (V c main_arg9) (unrow (V c main_v28))

/-- What point `t` writes back is block `t` of the update network of the whole entry arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  rw [KBody.pay1, whole2 V c t, whole3 V c t, whole4 V c t, whole5 V c t]
  obtain ⟨e0, e1, e2, e3, -, -, -, -, -, -, -, -, e4, e5⟩ := idx_facts t
  funext j
  obtain ⟨p, q, rfl⟩ : ∃ (p : Fin 5000) (q : Fin 128), j = ix2 p q := ⟨j 0, j 1, eq_ix2 j⟩
  have hrow : win1_6.index t (0 : Fin 2) * 5000 + 1 * p.val < 40000 := by have := p.isLt; omega
  have hi : ((cfg1.win 6).blk t).view.emb (ix2 p q) = ix2 (n0 := 40000) (n1 := 128) ⟨win1_6.index t (0 : Fin 2) * 5000 + 1 * p.val, hrow⟩ q := by
    funext a; apply Fin.ext
    match a with
    | ⟨0, _⟩ => rfl
    | ⟨1, _⟩ => show win1_6.index t (1 : Fin 2) * 128 + 1 * q.val = q.val; omega
  show gin (R := 5000) (K := 128) (N := 128) (iblk1 V c 0 t) (iblk1 V c 1 t) (V c main_arg7) (unrow (V c main_v27)) (V c main_arg9) (unrow (V c main_v28)) (ix2 p q)
    = G V c (((cfg1.win 6).blk t).view.emb (ix2 p q))
  rw [hi]
  refine gin_rows _ _ _ _ _ _ _ _ p ⟨win1_6.index t (0 : Fin 2) * 5000 + 1 * p.val, hrow⟩ (fun k => ?_) (fun k => ?_) q
  · show V c main_v16 (((cfg1.win 0).blk t).view.emb (ix2 p k)) = V c main_v16 _
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show V c main_v26 (((cfg1.win 1).blk t).view.emb (ix2 p k)) = V c main_v26 _
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega

/-- An index of the output array is in point `t`'s block iff each coordinate is in the block's range on its axis. -/
theorem mem_blk (t : Fin cfg1.N) (i : S40000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- The eight row blocks cover the output array: row `r` is in the block of the point whose row block is `r / 5000`. -/
theorem cover (i : S40000x128.Idx) : ∃ t : Fin cfg1.N, (cfg1.win 6).flush t = true ∧ i ∈ ((cfg1.win 6).blk t).view.set := by
  have hi0 : (i 0).val < 40000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the region: the update network of the whole entry arrays. -/
theorem arr (c : Dev nD) : (dat1 V c).arrAt 6 cfg1.N = G V c :=
  (dat1 V c).arrAt_eq_of_cover 6 (G V c) (fun t _ => flushed_eq V c t) cover

end Cert.Gnn.Region1

end
-- ==== Proof.Region2.lean ====
/-
  WHAT THE READ-OUT REGION LEAVES IN ITS OUTPUT ARRAY, for any contents the region is entered with.

  The grid has one point, which reads the pooled array, the two weight arrays and the two one-row bias arrays whole and
  writes the whole output.  The body's stored value is the read-out network of what it loads, so the output array ends
  holding the read-out network of the whole entry arrays.
-/
import proofs.«137290_j78795470012786_1_alg».proof.Proof.Gen.KernelIdeal.Frame
import proofs.«137290_j78795470012786_1_alg».proof.Proof.KernelBody
import Idealize.ShloMosaic.Lib.Pipeline.Value

set_option maxRecDepth 16384

noncomputable section

namespace Cert.Gnn.Region2

open Cert.KernelIdeal Cert.KernelIdeal.Gen Idealize.ShloMosaic Idealize.ShloMosaic.TcCoe Idealize.SL.Sem
open Idealize.ShloMosaic.ValueIdx Cert.DenseRow Cert.RowBias Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window is at block (0, 0). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- There is a point. -/
theorem idx_onto : ∃ t : Fin cfg2.N, win2_5.index t = ![0, 0] :=
  (by decide +kernel : ∃ t : Fin grid2.N, win2_5.index t = ![0, 0])

/-- Window 0, read whole at block (0, 0), is its array. -/
theorem whole0 (c : Dev nD) (t : Fin cfg2.N) : (iblk2 V c 0 t : S2000x128.Idx → EReal) = V c main_v41 := by
  obtain ⟨e0, e1, -⟩ := idx_facts t
  funext y
  show V c main_v41 (((cfg2.win 0).blk t).view.emb y) = V c main_v41 y
  refine congrArg _ (funext fun a => Fin.ext ?_)
  match a with
  | ⟨0, _⟩ => show win2_0.index t (0 : Fin 2) * 2000 + 1 * (y 0).val = (y 0).val; omega
  | ⟨1, _⟩ => show win2_0.index t (1 : Fin 2) * 128 + 1 * (y 1).val = (y 1).val; omega

/-- Window 1, read whole at block (0, 0), is its array. -/
theorem whole1 (c : Dev nD) (t : Fin cfg2.N) : (iblk2 V c 1 t : S128x128.Idx → EReal) = V c main_arg11 := by
  obtain ⟨-, -, e0, e1, -⟩ := idx_facts t
  funext y
  show V c main_arg11 (((cfg2.win 1).blk t).view.emb y) = V c main_arg11 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2, read whole at block (0, 0), is its array. -/
theorem whole2 (c : Dev nD) (t : Fin cfg2.N) : (iblk2 V c 2 t : S1x128.Idx → EReal) = V c main_v42 := by
  obtain ⟨-, -, -, -, e0, e1, -⟩ := idx_facts t
  funext y
  show V c main_v42 (((cfg2.win 2).blk t).view.emb y) = V c main_v42 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3, read whole at block (0, 0), is its array. -/
theorem whole3 (c : Dev nD) (t : Fin cfg2.N) : (iblk2 V c 3 t : S128x3.Idx → EReal) = V c main_arg13 := by
  obtain ⟨-, -, -, -, -, -, e0, e1, -⟩ := idx_facts t
  funext y
  show V c main_arg13 (((cfg2.win 3).blk t).view.emb y) = V c main_arg13 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 3 + 1 * (y 1).val = (y 1).val; omega

/-- Window 4, read whole at block (0, 0), is its array. -/
theorem whole4 (c : Dev nD) (t : Fin cfg2.N) : (iblk2 V c 4 t : S1x3.Idx → EReal) = V c main_v43 := by
  obtain ⟨-, -, -, -, -, -, -, -, e0, e1, -⟩ := idx_facts t
  funext y
  show V c main_v43 (((cfg2.win 4).blk t).view.emb y) = V c main_v43 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 3 + 1 * (y 1).val = (y 1).val; omega

/-- The read-out network of the whole entry arrays. -/
abbrev G (c : Dev nD) : S2000x3.Idx → EReal :=
  head (R := 2000) (K := 128) (N := 128) (M := 3) (V c main_v41) (V c main_arg11) (unrow (V c main_v42)) (V c main_arg13) (unrow (V c main_v43))

/-- What the point writes back is the read-out network of the whole entry arrays, read through the one block. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz,
    View.ld_unit_zero (S := S128x3) hz, View.ld_unit_zero (S := S1x3) hz]
  rw [KBody.pay2, whole0 V c t, whole1 V c t, whole2 V c t, whole3 V c t, whole4 V c t]
  obtain ⟨-, -, -, -, -, -, -, -, -, -, e0, e1⟩ := idx_facts t
  funext j
  show G V c j = G V c (((cfg2.win 5).blk t).view.emb j)
  refine congrArg (G V c) (funext fun a => Fin.ext ?_)
  match a with
  | ⟨0, _⟩ => show (j 0).val = win2_5.index t (0 : Fin 2) * 2000 + 1 * (j 0).val; omega
  | ⟨1, _⟩ => show (j 1).val = win2_5.index t (1 : Fin 2) * 3 + 1 * (j 1).val; omega

/-- An index of the output array is in the point's block iff each coordinate is in the block's range on its axis. -/
theorem mem_blk (t : Fin cfg2.N) (i : S2000x3.Idx) :
    i ∈ ((cfg2.win 5).blk t).view.set ↔ ∀ a : Fin 2, win2_5.index t a * S2000x3.size a ≤ (i a).val ∧ (i a).val < win2_5.index t a * S2000x3.size a + S2000x3.size a := by
  show i ∈ ((View.whole main_v44).slice (win2_5.rect t)).set ↔ _
  rw [View.set_slice_whole, Rect.mem_set_unit]
  exact Iff.rfl

/-- The one block is the whole output array. -/
theorem cover (i : S2000x3.Idx) : ∃ t : Fin cfg2.N, (cfg2.win 5).flush t = true ∧ i ∈ ((cfg2.win 5).blk t).view.set := by
  have hi0 : (i 0).val < 2000 := (i 0).isLt
  have hi1 : (i 1).val < 3 := (i 1).isLt
  obtain ⟨t, ht⟩ := idx_onto
  have q0 : win2_5.index t (0 : Fin 2) = 0 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 3 ≤ (i 1).val ∧ (i 1).val < win2_5.index t (1 : Fin 2) * 3 + 3; omega

/-- THE OUTPUT ARRAY after the region: the read-out network of the whole entry arrays. -/
theorem arr (c : Dev nD) : (dat2 V c).arrAt 5 cfg2.N = G V c :=
  (dat2 V c).arrAt_eq_of_cover 5 (G V c) (fun t _ => flushed_eq V c t) cover

end Cert.Gnn.Region2

end
-- ==== Proof.RefValue.lean ====
/-
  THE REFERENCE'S THREE NETWORKS AT THE IDEAL VALUES.

  The reference computes each node update on the whole arrays: the features plus the summed neighbour features, a
  `dot_general` with the first weight plus the first bias broadcast over the rows, the larger of that and zero, a second
  such layer and a second such maximum.  At the ideal values a `dot_general` contracting the operand's columns with the
  weight's rows is the plain sum over the contracted coordinate, so each update is the update network `gin` of the whole
  arrays, and the last three layers are the read-out network `head` of the pooled rows.  The gathers, the scatter-adds
  and the division by the counts are not opened: they stay as the stages the reference's run names.
-/
import proofs.«137290_j78795470012786_1_alg».proof.Proof.Gen.ReferenceIdeal.Read
import proofs.«137290_j78795470012786_1_alg».proof.Proof.Mlp

noncomputable section

namespace Cert.Gnn.RBody

open Cert.ReferenceIdeal Cert.ReferenceIdeal.Gen Cert.ReferenceIdeal.Read Idealize.ShloMosaic Idealize.ShloMosaic.ValueIdx Cert.DenseRow Cert.RowBias Cert.Gnn

/-! ## The contraction records -/

/-- The left operand's index at output index `(p, c)` and contraction coordinate `k` is `(p, k)`. -/
theorem lhs_a (p : Fin 40000) (c : Fin 128) (k : Fin 64) :
    dot_S40000x64_S64x128_S40000x128_1_0_0_1_n_n.lhsIdx (ix2 p c) ((contrEquiv1 dot_S40000x64_S64x128_S40000x128_1_0_0_1_n_n 64 rfl rfl).symm k) = ix2 p k :=
  funext fun a => Fin.ext (by
    have hk := contrEquiv1_symm_val dot_S40000x64_S64x128_S40000x128_1_0_0_1_n_n 64 rfl rfl k
    match a with
    | ⟨0, _⟩ =>
      show (dot_S40000x64_S64x128_S40000x128_1_0_0_1_n_n.lhsIdx (ix2 p c) ((contrEquiv1 dot_S40000x64_S64x128_S40000x128_1_0_0_1_n_n 64 rfl rfl).symm k) 0).val = p.val
      unfold DotDims.lhsIdx
      rw [dif_neg (show ¬(0 : Fin S40000x64.rank) ∈ dot_S40000x64_S64x128_S40000x128_1_0_0_1_n_n.lhsBatch by decide), dif_pos (show (0 : Fin S40000x64.rank) ∈ dot_S40000x64_S64x128_S40000x128_1_0_0_1_n_n.lhsNonContracting by decide)]
      rfl
    | ⟨1, _⟩ => exact (dot_S40000x64_S64x128_S40000x128_1_0_0_1_n_n.lhsIdx_val_of_single rfl (ix2 p c) _).trans hk)

/-- The right operand's index at output index `(p, c)` and contraction coordinate `k` is `(k, c)`. -/
theorem rhs_a (p : Fin 40000) (c : Fin 128) (k : Fin 64) :
    dot_S40000x64_S64x128_S40000x128_1_0_0_1_n_n.rhsIdx (ix2 p c) ((contrEquiv1 dot_S40000x64_S64x128_S40000x128_1_0_0_1_n_n 64 rfl rfl).symm k) = ix2 k c :=
  funext fun a => Fin.ext (by
    have hk := contrEquiv1_symm_val dot_S40000x64_S64x128_S40000x128_1_0_0_1_n_n 64 rfl rfl k
    match a with
    | ⟨0, _⟩ => exact (dot_S40000x64_S64x128_S40000x128_1_0_0_1_n_n.rhsIdx_val_of_single rfl (ix2 p c) _).trans hk
    | ⟨1, _⟩ =>
      show (dot_S40000x64_S64x128_S40000x128_1_0_0_1_n_n.rhsIdx (ix2 p c) ((contrEquiv1 dot_S40000x64_S64x128_S40000x128_1_0_0_1_n_n 64 rfl rfl).symm k) 1).val = c.val
      unfold DotDims.rhsIdx
      rw [dif_neg (show ¬(1 : Fin S64x128.rank) ∈ dot_S40000x64_S64x128_S40000x128_1_0_0_1_n_n.rhsBatch by decide), dif_pos (show (1 : Fin S64x128.rank) ∈ dot_S40000x64_S64x128_S40000x128_1_0_0_1_n_n.rhsNonContracting by decide)]
      rfl)

/-- The left operand's index at output index `(p, c)` and contraction coordinate `k` is `(p, k)`. -/
theorem lhs_b (p : Fin 40000) (c : Fin 128) (k : Fin 128) :
    dot_S40000x128_S128x128_S40000x128_1_0_0_1_n_n.lhsIdx (ix2 p c) ((contrEquiv1 dot_S40000x128_S128x128_S40000x128_1_0_0_1_n_n 128 rfl rfl).symm k) = ix2 p k :=
  funext fun a => Fin.ext (by
    have hk := contrEquiv1_symm_val dot_S40000x128_S128x128_S40000x128_1_0_0_1_n_n 128 rfl rfl k
    match a with
    | ⟨0, _⟩ =>
      show (dot_S40000x128_S128x128_S40000x128_1_0_0_1_n_n.lhsIdx (ix2 p c) ((contrEquiv1 dot_S40000x128_S128x128_S40000x128_1_0_0_1_n_n 128 rfl rfl).symm k) 0).val = p.val
      unfold DotDims.lhsIdx
      rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
      rfl
    | ⟨1, _⟩ => exact (dot_S40000x128_S128x128_S40000x128_1_0_0_1_n_n.lhsIdx_val_of_single rfl (ix2 p c) _).trans hk)

/-- The right operand's index at output index `(p, c)` and contraction coordinate `k` is `(k, c)`. -/
theorem rhs_b (p : Fin 40000) (c : Fin 128) (k : Fin 128) :
    dot_S40000x128_S128x128_S40000x128_1_0_0_1_n_n.rhsIdx (ix2 p c) ((contrEquiv1 dot_S40000x128_S128x128_S40000x128_1_0_0_1_n_n 128 rfl rfl).symm k) = ix2 k c :=
  funext fun a => Fin.ext (by
    have hk := contrEquiv1_symm_val dot_S40000x128_S128x128_S40000x128_1_0_0_1_n_n 128 rfl rfl k
    match a with
    | ⟨0, _⟩ => exact (dot_S40000x128_S128x128_S40000x128_1_0_0_1_n_n.rhsIdx_val_of_single rfl (ix2 p c) _).trans hk
    | ⟨1, _⟩ =>
      show (dot_S40000x128_S128x128_S40000x128_1_0_0_1_n_n.rhsIdx (ix2 p c) ((contrEquiv1 dot_S40000x128_S128x128_S40000x128_1_0_0_1_n_n 128 rfl rfl).symm k) 1).val = c.val
      unfold DotDims.rhsIdx
      rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
      rfl)

/-- The left operand's index at output index `(p, c)` and contraction coordinate `k` is `(p, k)`. -/
theorem lhs_c (p : Fin 2000) (c : Fin 128) (k : Fin 128) :
    dot_S2000x128_S128x128_S2000x128_1_0_0_1_n_n.lhsIdx (ix2 p c) ((contrEquiv1 dot_S2000x128_S128x128_S2000x128_1_0_0_1_n_n 128 rfl rfl).symm k) = ix2 p k :=
  funext fun a => Fin.ext (by
    have hk := contrEquiv1_symm_val dot_S2000x128_S128x128_S2000x128_1_0_0_1_n_n 128 rfl rfl k
    match a with
    | ⟨0, _⟩ =>
      show (dot_S2000x128_S128x128_S2000x128_1_0_0_1_n_n.lhsIdx (ix2 p c) ((contrEquiv1 dot_S2000x128_S128x128_S2000x128_1_0_0_1_n_n 128 rfl rfl).symm k) 0).val = p.val
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl
    | ⟨1, _⟩ => exact (dot_S2000x128_S128x128_S2000x128_1_0_0_1_n_n.lhsIdx_val_of_single rfl (ix2 p c) _).trans hk)

/-- The right operand's index at output index `(p, c)` and contraction coordinate `k` is `(k, c)`. -/
theorem rhs_c (p : Fin 2000) (c : Fin 128) (k : Fin 128) :
    dot_S2000x128_S128x128_S2000x128_1_0_0_1_n_n.rhsIdx (ix2 p c) ((contrEquiv1 dot_S2000x128_S128x128_S2000x128_1_0_0_1_n_n 128 rfl rfl).symm k) = ix2 k c :=
  funext fun a => Fin.ext (by
    have hk := contrEquiv1_symm_val dot_S2000x128_S128x128_S2000x128_1_0_0_1_n_n 128 rfl rfl k
    match a with
    | ⟨0, _⟩ => exact (dot_S2000x128_S128x128_S2000x128_1_0_0_1_n_n.rhsIdx_val_of_single rfl (ix2 p c) _).trans hk
    | ⟨1, _⟩ =>
      show (dot_S2000x128_S128x128_S2000x128_1_0_0_1_n_n.rhsIdx (ix2 p c) ((contrEquiv1 dot_S2000x128_S128x128_S2000x128_1_0_0_1_n_n 128 rfl rfl).symm k) 1).val = c.val
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)

/-- The left operand's index at output index `(p, c)` and contraction coordinate `k` is `(p, k)`. -/
theorem lhs_d (p : Fin 2000) (c : Fin 3) (k : Fin 128) :
    dot_S2000x128_S128x3_S2000x3_1_0_0_1_n_n.lhsIdx (ix2 p c) ((contrEquiv1 dot_S2000x128_S128x3_S2000x3_1_0_0_1_n_n 128 rfl rfl).symm k) = ix2 p k :=
  funext fun a => Fin.ext (by
    have hk := contrEquiv1_symm_val dot_S2000x128_S128x3_S2000x3_1_0_0_1_n_n 128 rfl rfl k
    match a with
    | ⟨0, _⟩ =>
      show (dot_S2000x128_S128x3_S2000x3_1_0_0_1_n_n.lhsIdx (ix2 p c) ((contrEquiv1 dot_S2000x128_S128x3_S2000x3_1_0_0_1_n_n 128 rfl rfl).symm k) 0).val = p.val
      unfold DotDims.lhsIdx
      rw [dif_neg (show ¬(0 : Fin S2000x128.rank) ∈ dot_S2000x128_S128x3_S2000x3_1_0_0_1_n_n.lhsBatch by decide), dif_pos (show (0 : Fin S2000x128.rank) ∈ dot_S2000x128_S128x3_S2000x3_1_0_0_1_n_n.lhsNonContracting by decide)]
      rfl
    | ⟨1, _⟩ => exact (dot_S2000x128_S128x3_S2000x3_1_0_0_1_n_n.lhsIdx_val_of_single rfl (ix2 p c) _).trans hk)

/-- The right operand's index at output index `(p, c)` and contraction coordinate `k` is `(k, c)`. -/
theorem rhs_d (p : Fin 2000) (c : Fin 3) (k : Fin 128) :
    dot_S2000x128_S128x3_S2000x3_1_0_0_1_n_n.rhsIdx (ix2 p c) ((contrEquiv1 dot_S2000x128_S128x3_S2000x3_1_0_0_1_n_n 128 rfl rfl).symm k) = ix2 k c :=
  funext fun a => Fin.ext (by
    have hk := contrEquiv1_symm_val dot_S2000x128_S128x3_S2000x3_1_0_0_1_n_n 128 rfl rfl k
    match a with
    | ⟨0, _⟩ => exact (dot_S2000x128_S128x3_S2000x3_1_0_0_1_n_n.rhsIdx_val_of_single rfl (ix2 p c) _).trans hk
    | ⟨1, _⟩ =>
      show (dot_S2000x128_S128x3_S2000x3_1_0_0_1_n_n.rhsIdx (ix2 p c) ((contrEquiv1 dot_S2000x128_S128x3_S2000x3_1_0_0_1_n_n 128 rfl rfl).symm k) 1).val = c.val
      unfold DotDims.rhsIdx
      rw [dif_neg (show ¬(1 : Fin S128x3.rank) ∈ dot_S2000x128_S128x3_S2000x3_1_0_0_1_n_n.rhsBatch by decide), dif_pos (show (1 : Fin S128x3.rank) ∈ dot_S2000x128_S128x3_S2000x3_1_0_0_1_n_n.rhsNonContracting by decide)]
      rfl)

/-! ## The networks -/

/-- The first update, on the whole arrays: the update network of the features and their summed neighbours. -/
theorem v24 (x0 : (⟨S40000x64, .f32⟩ : BufTy).Contents (Elt Ideal)) (x1 : (⟨S2x640000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v24 (F := Ideal) x0 x1 x3 x4 x5 x6 = gin (R := 40000) (K := 64) (N := 128) x0 (val_main_v13 (F := Ideal) x0 x1) x3 x4 x5 x6 := by
  unfold val_main_v24 val_main_v23 val_main_v20 val_main_v22 val_main_v21 val_main_call1_v0 val_main_call1_cst
    val_main_v19 val_main_v18 val_main_v15 val_main_v17 val_main_v16 val_main_call0_v0 val_main_call0_cst val_main_v14 gin
  rw [hlayerArr dot_S40000x64_S64x128_S40000x128_1_0_0_1_n_n rfl rfl lhs_a rhs_a, hact, hlayerArr dot_S40000x128_S128x128_S40000x128_1_0_0_1_n_n rfl rfl lhs_b rhs_b, hact]
  rfl

/-- The second update, on the whole arrays: the update network of the first update's rows and their summed neighbours. -/
theorem v45 (x0 : (⟨S40000x64, .f32⟩ : BufTy).Contents (Elt Ideal)) (x1 : (⟨S2x640000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v45 (F := Ideal) x0 x1 x3 x4 x5 x6 x7 x8 x9 x10
      = gin (R := 40000) (K := 128) (N := 128) (val_main_v24 (F := Ideal) x0 x1 x3 x4 x5 x6) (val_main_v34 (F := Ideal) x0 x1 x3 x4 x5 x6) x7 x8 x9 x10 := by
  unfold val_main_v45 val_main_v44 val_main_v41 val_main_v43 val_main_v42 val_main_call3_v0 val_main_call3_cst
    val_main_v40 val_main_v39 val_main_v36 val_main_v38 val_main_v37 val_main_call2_v0 val_main_call2_cst val_main_v35 gin
  rw [hlayerArr dot_S40000x128_S128x128_S40000x128_1_0_0_1_n_n rfl rfl lhs_b rhs_b, hact, hlayerArr dot_S40000x128_S128x128_S40000x128_1_0_0_1_n_n rfl rfl lhs_b rhs_b, hact]
  rfl

/-- The result, on the whole pooled array: the read-out network of the pooled rows. -/
theorem v66 (x0 : (⟨S40000x64, .f32⟩ : BufTy).Contents (Elt Ideal)) (x1 : (⟨S2x640000, .i32⟩ : BufTy).Contents (Elt Ideal)) (x2 : (⟨S40000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x3, .f32⟩ : BufTy).Contents (Elt Ideal)) (x14 : (⟨S3, .f32⟩ : BufTy).Contents (Elt Ideal)) :
    val_main_v66 (F := Ideal) x0 x1 x2 x3 x4 x5 x6 x7 x8 x9 x10 x11 x12 x13 x14
      = head (R := 2000) (K := 128) (N := 128) (M := 3) (val_main_v57 (F := Ideal) x0 x1 x2 x3 x4 x5 x6 x7 x8 x9 x10) x11 x12 x13 x14 := by
  unfold val_main_v66 val_main_v63 val_main_v65 val_main_v64 val_main_v62 val_main_call4_v0 val_main_call4_cst
    val_main_v61 val_main_v58 val_main_v60 val_main_v59 head
  rw [hlayerArr dot_S2000x128_S128x128_S2000x128_1_0_0_1_n_n rfl rfl lhs_c rhs_c, hact, hlayerArr dot_S2000x128_S128x3_S2000x3_1_0_0_1_n_n rfl rfl lhs_d rhs_d]

end Cert.Gnn.RBody

end
-- ==== Proof.Bridge.lean ====
/-
  THE KERNEL PROGRAM'S RESULT AS THE REFERENCE'S FUNCTION OF THE ARGUMENTS.

  The kernel program interleaves host operations with three regions.  Its host operations are the reference's own,
  operation by operation: the neighbour sums (a gather of rows by the edges' sources, added into the rows named by the
  edges' targets), the pooling of rows by graph and the division by the graphs' sizes.  Where the reference applies dense
  layers and rectifiers to whole arrays, the kernel program runs a region, and each region leaves in its output array the
  same network of the whole arrays it is entered with.  Walking the program's boundaries in order — the contents after the
  first stretch, after the first region, after the second stretch, … — every intermediate array is therefore the stage of
  the same name in the reference, as a function of the launch contents of the arguments; the last one is the result.
  No sum is regrouped and no property of the inputs is used.
-/
import proofs.«137290_j78795470012786_1_alg».proof.Proof.Gen.KernelIdeal.Frame
import proofs.«137290_j78795470012786_1_alg».proof.Proof.Gen.ReferenceIdeal.Read
import proofs.«137290_j78795470012786_1_alg».proof.Proof.Region0
import proofs.«137290_j78795470012786_1_alg».proof.Proof.Region1
import proofs.«137290_j78795470012786_1_alg».proof.Proof.Region2
import proofs.«137290_j78795470012786_1_alg».proof.Proof.RefValue
import Idealize.ShloMosaic.Lib.StableHlo.Run

set_option maxRecDepth 16384

noncomputable section

namespace Cert.Gnn.Bridge

open Cert.KernelIdeal Cert.KernelIdeal.Gen Idealize.ShloMosaic Idealize.ShloMosaic.TcCoe Idealize.SL.Sem
open Idealize.ShloMosaic.StableHlo Idealize.ShloMosaic.ValueIdx Cert.DenseRow Cert.RowBias Cert.Gnn
open Cert.ReferenceIdeal.Read

variable (m : (ℓ : Loc nD τ sig) → Buf (Elt Ideal) ℓ) (ρ : Dev nD → PrngReg)

/-! ## The argument arrays at each boundary: nothing writes them -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl

theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl

theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl

theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl

theorem W1_arg12 (c : Dev nD) : W1 m ρ c (Proc.devRef .tc main_arg12) = m ((c : Thread nD τ).loc main_arg12) := by
  show StableHlo.after hostOps0 (W0 m ρ c) (Proc.devRef .tc main_arg12) = _
  after_results <;> rfl

theorem W1_arg13 (c : Dev nD) : W1 m ρ c (Proc.devRef .tc main_arg13) = m ((c : Thread nD τ).loc main_arg13) := by
  show StableHlo.after hostOps0 (W0 m ρ c) (Proc.devRef .tc main_arg13) = _
  after_results <;> rfl

theorem W1_arg14 (c : Dev nD) : W1 m ρ c (Proc.devRef .tc main_arg14) = m ((c : Thread nD τ).loc main_arg14) := by
  show StableHlo.after hostOps0 (W0 m ρ c) (Proc.devRef .tc main_arg14) = _
  after_results <;> rfl

theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) := by
  show StableHlo.after hostOps1 (W2 m ρ c) (Proc.devRef .tc main_arg8) = _
  after_results
  exact W2_arg8 m ρ c
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) := by
  show StableHlo.after hostOps1 (W2 m ρ c) (Proc.devRef .tc main_arg12) = _
  after_results
  exact W2_arg12 m ρ c
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) := by
  show StableHlo.after hostOps1 (W2 m ρ c) (Proc.devRef .tc main_arg13) = _
  after_results
  exact W2_arg13 m ρ c
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) := by
  show StableHlo.after hostOps1 (W2 m ρ c) (Proc.devRef .tc main_arg14) = _
  after_results
  exact W2_arg14 m ρ c

theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) := by
  show StableHlo.after hostOps2 (W4 m ρ c) (Proc.devRef .tc main_arg2) = _
  after_results
  exact W4_arg2 m ρ c
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) := by
  show StableHlo.after hostOps2 (W4 m ρ c) (Proc.devRef .tc main_arg11) = _
  after_results
  exact W4_arg11 m ρ c
theorem W4_arg12 (c : Dev nD) : W4 m ρ c (Proc.devRef .tc main_arg12) = m ((c : Thread nD τ).loc main_arg12) :=
  (W4_of_ne m ρ c main_arg12 (by decide)).trans (W3_arg12 m ρ c)
theorem W5_arg12 (c : Dev nD) : W5 m ρ c (Proc.devRef .tc main_arg12) = m ((c : Thread nD τ).loc main_arg12) := by
  show StableHlo.after hostOps2 (W4 m ρ c) (Proc.devRef .tc main_arg12) = _
  after_results
  exact W4_arg12 m ρ c
theorem W4_arg13 (c : Dev nD) : W4 m ρ c (Proc.devRef .tc main_arg13) = m ((c : Thread nD τ).loc main_arg13) :=
  (W4_of_ne m ρ c main_arg13 (by decide)).trans (W3_arg13 m ρ c)
theorem W5_arg13 (c : Dev nD) : W5 m ρ c (Proc.devRef .tc main_arg13) = m ((c : Thread nD τ).loc main_arg13) := by
  show StableHlo.after hostOps2 (W4 m ρ c) (Proc.devRef .tc main_arg13) = _
  after_results
  exact W4_arg13 m ρ c
theorem W4_arg14 (c : Dev nD) : W4 m ρ c (Proc.devRef .tc main_arg14) = m ((c : Thread nD τ).loc main_arg14) :=
  (W4_of_ne m ρ c main_arg14 (by decide)).trans (W3_arg14 m ρ c)
theorem W5_arg14 (c : Dev nD) : W5 m ρ c (Proc.devRef .tc main_arg14) = m ((c : Thread nD τ).loc main_arg14) := by
  show StableHlo.after hostOps2 (W4 m ρ c) (Proc.devRef .tc main_arg14) = _
  after_results
  exact W4_arg14 m ρ c

/-! ## After the first stretch -/

/-- The summed neighbour features. -/
theorem s0_v13 (c : Dev nD) : W1 m ρ c (Proc.devRef .tc main_v13) = val_main_v13 (F := Ideal) (m ((c : Thread nD τ).loc main_arg0)) (m ((c : Thread nD τ).loc main_arg1)) := by
  show StableHlo.after hostOps0 (W0 m ρ c) (Proc.devRef .tc main_v13) = _
  after_results
  unfold val_main_v13 val_main_v12 val_main_v11 val_main_v10 val_main_v9 val_main_v8 val_main_v7 val_main_v6 val_main_v5 val_main_v4
    val_main_v3 val_main_v2 val_main_v1 val_main_v0 val_main_c val_main_c_0 val_main_cst
  rfl

/-- The edges' sources and targets, as vectors. -/
theorem s0_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results
  unfold val_main_v1 val_main_v0
  rfl
theorem s0_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  unfold val_main_v3 val_main_v2
  rfl

/-- The first update's two biases, as one-row arrays. -/
theorem s0_v14 (c : Dev nD) : unrow (W1 m ρ c (Proc.devRef .tc main_v14)) = (m ((c : Thread nD τ).loc main_arg4)) := by
  have e : W1 m ρ c (Proc.devRef .tc main_v14) = shapeCast S1x128 (m ((c : Thread nD τ).loc main_arg4)) shapeCasts_S128_S1x128 := by
    show StableHlo.after hostOps0 (W0 m ρ c) (Proc.devRef .tc main_v14) = _
    after_results <;> rfl
  rw [e]
  exact unrow_cast _ _
theorem s0_v15 (c : Dev nD) : unrow (W1 m ρ c (Proc.devRef .tc main_v15)) = (m ((c : Thread nD τ).loc main_arg6)) := by
  have e : W1 m ρ c (Proc.devRef .tc main_v15) = shapeCast S1x128 (m ((c : Thread nD τ).loc main_arg6)) shapeCasts_S128_S1x128 := by
    show StableHlo.after hostOps0 (W0 m ρ c) (Proc.devRef .tc main_v15) = _
    after_results <;> rfl
  rw [e]
  exact unrow_cast _ _

/-! ## After the first region -/

/-- The first update of every node. -/
theorem k16 (c : Dev nD) : W2 m ρ c (Proc.devRef .tc main_v16) = val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ((Region0.arr (V1 m ρ) c).trans ?_)
  show gin (R := 40000) (K := 64) (N := 128) (W1 m ρ c (Proc.devRef .tc main_arg0)) (W1 m ρ c (Proc.devRef .tc main_v13)) (W1 m ρ c (Proc.devRef .tc main_arg3))
    (unrow (W1 m ρ c (Proc.devRef .tc main_v14))) (W1 m ρ c (Proc.devRef .tc main_arg5)) (unrow (W1 m ρ c (Proc.devRef .tc main_v15))) = _
  rw [W1_arg0, s0_v13, W1_arg3, s0_v14, W1_arg5, s0_v15]
  exact (RBody.v24 _ _ _ _ _ _).symm

theorem W2_v1 (c : Dev nD) : W2 m ρ c (Proc.devRef .tc main_v1) = val_main_v1 (F := Ideal) (m ((c : Thread nD τ).loc main_arg1)) :=
  (W2_of_ne m ρ c main_v1 (by decide)).trans (s0_v1 m ρ c)
theorem W2_v3 (c : Dev nD) : W2 m ρ c (Proc.devRef .tc main_v3) = val_main_v3 (F := Ideal) (m ((c : Thread nD τ).loc main_arg1)) :=
  (W2_of_ne m ρ c main_v3 (by decide)).trans (s0_v3 m ρ c)

/-! ## After the second stretch -/

theorem s1_v16 (c : Dev nD) : W3 m ρ c (Proc.devRef .tc main_v16) = val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v16) = _
  after_results
  exact k16 m ρ c

set_option maxHeartbeats 2000000 in
/-- The summed neighbour rows of the first update. -/
theorem s1_v26 (c : Dev nD) : W3 m ρ c (Proc.devRef .tc main_v26) = val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v26) = _
  after_results_simp
  rw [k16, W2_v1, W2_v3]
  unfold val_main_v34 val_main_v33 val_main_v32 val_main_v31 val_main_v30 val_main_v29 val_main_v28 val_main_v27 val_main_v26 val_main_v25
    val_main_c_1 val_main_c_2 val_main_cst_3
  rfl

theorem s1_v27 (c : Dev nD) : unrow (W3 m ρ c (Proc.devRef .tc main_v27)) = (m ((c : Thread nD τ).loc main_arg8)) := by
  have e : W3 m ρ c (Proc.devRef .tc main_v27) = shapeCast S1x128 (m ((c : Thread nD τ).loc main_arg8)) shapeCasts_S128_S1x128 := by
    show StableHlo.after hostOps1 (W2 m ρ c) (Proc.devRef .tc main_v27) = _
    after_results
    rw [W2_arg8]
    rfl
  rw [e]
  exact unrow_cast _ _
theorem s1_v28 (c : Dev nD) : unrow (W3 m ρ c (Proc.devRef .tc main_v28)) = (m ((c : Thread nD τ).loc main_arg10)) := by
  have e : W3 m ρ c (Proc.devRef .tc main_v28) = shapeCast S1x128 (m ((c : Thread nD τ).loc main_arg10)) shapeCasts_S128_S1x128 := by
    show StableHlo.after hostOps1 (W2 m ρ c) (Proc.devRef .tc main_v28) = _
    after_results
    rw [W2_arg10]
    rfl
  rw [e]
  exact unrow_cast _ _

/-! ## After the second region -/

/-- The second update of every node. -/
theorem k29 (c : Dev nD) : W4 m ρ c (Proc.devRef .tc main_v29) = val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((Region1.arr (V3 m ρ) c).trans ?_)
  show gin (R := 40000) (K := 128) (N := 128) (W3 m ρ c (Proc.devRef .tc main_v16)) (W3 m ρ c (Proc.devRef .tc main_v26)) (W3 m ρ c (Proc.devRef .tc main_arg7))
    (unrow (W3 m ρ c (Proc.devRef .tc main_v27))) (W3 m ρ c (Proc.devRef .tc main_arg9)) (unrow (W3 m ρ c (Proc.devRef .tc main_v28))) = _
  rw [s1_v16, s1_v26, W3_arg7, s1_v27, W3_arg9, s1_v28]
  exact (RBody.v45 _ _ _ _ _ _ _ _ _ _).symm

/-! ## After the third stretch -/

set_option maxHeartbeats 2000000 in
/-- The pooled rows: the sums by graph divided by the graphs' sizes. -/
theorem s2_v41 (c : Dev nD) : W5 m ρ c (Proc.devRef .tc main_v41) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v41) = _
  after_results_simp
  rw [k29, W4_arg2]
  unfold val_main_v57 val_main_v56 val_main_v55 val_main_v54 val_main_v53 val_main_v52 val_main_v51 val_main_v50 val_main_v49 val_main_v48
    val_main_v47 val_main_v46 val_main_cst_4 val_main_cst_5 val_main_cst_6 val_main_cst_7
  rfl

theorem s2_v42 (c : Dev nD) : unrow (W5 m ρ c (Proc.devRef .tc main_v42)) = (m ((c : Thread nD τ).loc main_arg12)) := by
  have e : W5 m ρ c (Proc.devRef .tc main_v42) = shapeCast S1x128 (m ((c : Thread nD τ).loc main_arg12)) shapeCasts_S128_S1x128 := by
    show StableHlo.after hostOps2 (W4 m ρ c) (Proc.devRef .tc main_v42) = _
    after_results
    rw [W4_arg12]
    rfl
  rw [e]
  exact unrow_cast _ _
theorem s2_v43 (c : Dev nD) : unrow (W5 m ρ c (Proc.devRef .tc main_v43)) = (m ((c : Thread nD τ).loc main_arg14)) := by
  have e : W5 m ρ c (Proc.devRef .tc main_v43) = shapeCast S1x3 (m ((c : Thread nD τ).loc main_arg14)) shapeCasts_S3_S1x3 := by
    show StableHlo.after hostOps2 (W4 m ρ c) (Proc.devRef .tc main_v43) = _
    after_results
    rw [W4_arg14]
    rfl
  rw [e]
  exact unrow_cast _ _

/-! ## After the third region -/

/-- THE RESULT: what the third region leaves in its output array is the reference's last stage of the launch contents of
    the fifteen arguments. -/
theorem result (c : Dev nD) :
    (dat2 (V5 m ρ) c).arrAt 5 cfg2.N = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (Region2.arr (V5 m ρ) c).trans ?_
  show head (R := 2000) (K := 128) (N := 128) (M := 3) (W5 m ρ c (Proc.devRef .tc main_v41)) (W5 m ρ c (Proc.devRef .tc main_arg11))
    (unrow (W5 m ρ c (Proc.devRef .tc main_v42))) (W5 m ρ c (Proc.devRef .tc main_arg13)) (unrow (W5 m ρ c (Proc.devRef .tc main_v43))) = _
  rw [s2_v41, W5_arg11, s2_v42, W5_arg13, s2_v43]
  exact (RBody.v66 _ _ _ _ _ _ _ _ _ _ _ _ _ _ _).symm

end Cert.Gnn.Bridge

end
-- ==== Proof.lean ====
/-
  The graph model's two programs compute one function.

  Both programs take node features, an edge list, a graph assignment and six dense layers.  Twice, every node's row is
  replaced by a two-layer network of the row plus the sum of its neighbours' rows; the rows are then averaged by graph and
  a two-layer read-out is applied.  The reference does all of it with whole-array host operations.  The kernel program keeps
  the reference's own host operations for the neighbour sums and the pooling and runs the three small networks as regions,
  the first two over eight blocks of 5000 rows with the weights resident.

  At the ideal values (floats are extended reals, a change of float format is the identity, a matrix product into a
  zero accumulator and a `dot_general` are both the plain sum over the contracted coordinate) the networks agree row by
  row, a block of rows of a network's result is the network of that block of rows, and the host operations are literally
  the same; so every intermediate array of the kernel program is the reference's stage of the same name, and the results
  are equal.  No sum is regrouped and nothing is cancelled: the finiteness of the inputs is not used.

  The frames of the two kernel programs are their generated frame certificates; the reference's frame is its run with the
  result dropped; the idealization rewrote no operation.
-/
import proofs.«137290_j78795470012786_1_alg».proof.Defs
import proofs.«137290_j78795470012786_1_alg».proof.Proof.Gen.Kernel
import proofs.«137290_j78795470012786_1_alg».proof.Proof.Gen.Kernel.Skeleton
import proofs.«137290_j78795470012786_1_alg».proof.Proof.Gen.Kernel.Launch
import proofs.«137290_j78795470012786_1_alg».proof.Proof.Gen.Kernel.Points
import proofs.«137290_j78795470012786_1_alg».proof.Proof.Gen.Kernel.Frame
import proofs.«137290_j78795470012786_1_alg».proof.Proof.Gen.KernelIdeal
import proofs.«137290_j78795470012786_1_alg».proof.Proof.Gen.KernelIdeal.Skeleton
import proofs.«137290_j78795470012786_1_alg».proof.Proof.Gen.KernelIdeal.Launch
import proofs.«137290_j78795470012786_1_alg».proof.Proof.Gen.KernelIdeal.Points
import proofs.«137290_j78795470012786_1_alg».proof.Proof.Gen.KernelIdeal.Frame
import proofs.«137290_j78795470012786_1_alg».proof.Proof.Gen.ReferenceIdeal
import proofs.«137290_j78795470012786_1_alg».proof.Proof.Gen.ReferenceIdeal.Run
import proofs.«137290_j78795470012786_1_alg».proof.Proof.Gen.ReferenceIdeal.Read
import proofs.«137290_j78795470012786_1_alg».proof.Proof.Gen.Pre_finite_inputs
import proofs.«137290_j78795470012786_1_alg».proof.Proof.KernelRun
import proofs.«137290_j78795470012786_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's last stage of the arguments' launch
    contents in their result buffers. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Gnn.Bridge.result m ρ c), (h c).2⟩) (Cert.Gnn.KRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14⟩ := hagree c
    refine (h c).1.trans ((Cert.ReferenceIdeal.Read.val_main_v66_eq m' c).trans ?_)
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
